-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S10000x128 .f32) (main_arg1 : IVec S2x640000 32) (main_arg2 : FVec F S640000x128 .f32) (main_arg3 : FVec F S128x128 .f32) (main_arg4 : FVec F S128 .f32) (main_arg5 : FVec F S256x128 .f32) (main_arg6 : FVec F S128 .f32) (main_arg7 : FVec F S128x128 .f32) (main_arg8 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S10000x128 : Shape := ⟨2, ![10000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S256x128 : Shape := ⟨2, ![256, 128]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S640000x1 : Shape := ⟨2, ![640000, 1]⟩
abbrev S10000x256 : Shape := ⟨2, ![10000, 256]⟩
abbrev S640000x256 : Shape := ⟨2, ![640000, 256]⟩
abbrev S2000x256 : Shape := ⟨2, ![2000, 256]⟩
abbrev S2000x128 : Shape := ⟨2, ![2000, 128]⟩

abbrev nBuf : Space → Nat
  | .hbm => 34
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x128, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S640000x128, .f32⟩
  | .hbm, ⟨14, _⟩ => ⟨S_, .f32⟩
  | .hbm, ⟨15, _⟩ => ⟨S10000x128, .f32⟩
  | .hbm, ⟨16, _⟩ => ⟨S640000x1, .i32⟩
  | .hbm, ⟨17, _⟩ => ⟨S10000x128, .f32⟩
  | .hbm, ⟨18, _⟩ => ⟨S10000x256, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x256, .f32⟩
  | .hbm, ⟨28, _⟩ => ⟨S_, .f32⟩
  | .hbm, ⟨29, _⟩ => ⟨S10000x256, .f32⟩
  | .hbm, ⟨30, _⟩ => ⟨S640000x1, .i32⟩
  | .hbm, ⟨31, _⟩ => ⟨S10000x256, .f32⟩
  | .hbm, ⟨32, _⟩ => ⟨S10000x256, .f32⟩
  | .hbm, ⟨33, _⟩ => ⟨S10000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S2000x256, .f32⟩
  | .local _ .vmem, ⟨7, _⟩ => ⟨S2000x256, .f32⟩
  | .local _ .vmem, ⟨8, _⟩ => ⟨S256x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S_S10000x128 : S_.BroadcastsInDim S10000x128 (![] : Fin 0 → Fin S10000x128.rank)
  bcast_S640000_S640000x1_0 : S640000.BroadcastsInDim S640000x1 (![0] : Fin 1 → Fin S640000x1.rank)
  concatenates_S10000x128_S10000x128_S10000x256_d1 : Shape.Concatenates [S10000x128, S10000x128] S10000x256 1
  bcast_S_S640000 : S_.BroadcastsInDim S640000 (![] : Fin 0 → Fin S640000.rank)
  bcast_S_S10000x256 : S_.BroadcastsInDim S10000x256 (![] : Fin 0 → Fin S10000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  dot_S10000x128_S128x128_S10000x128_1_0_0_1_n_n_wf : DotDims.WF S10000x128 S128x128 S10000x128 [1] [0] [0] [1] [] []
  scatter_S10000x128_S640000x1_S640000x128_1_0_0_1_wf : ScatterDims.WF S10000x128 S640000x1 S640000x128 [1] [0] [0] 1
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S640000x128.size a
  hwx0_0 : ∀ i : grid0.Coords, EltTy.bits .f32 = 32 ∨ (Rect.block (s := S640000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S640000x128.size a
  hwx0_3 : ∀ i : grid0.Coords, EltTy.bits .f32 = 32 ∨ (Rect.block (s := S640000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S10000x128.size a
  hwx1_5 : ∀ i : grid1.Coords, EltTy.bits .f32 = 32 ∨ (Rect.block (s := S10000x128) S2000x128.size (cc1_transform_5 i) (hinb1_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg2) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S256x128 : Shape := ⟨2, ![256, 128]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S640000x1 : Shape := ⟨2, ![640000, 1]⟩
abbrev S10000x256 : Shape := ⟨2, ![10000, 256]⟩
abbrev S640000x256 : Shape := ⟨2, ![640000, 256]⟩

abbrev nBuf : Space → Nat
  | .hbm => 47
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x128, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S640000x128, .f32⟩
  | .hbm, ⟨14, _⟩ => ⟨S1x128, .f32⟩
  | .hbm, ⟨15, _⟩ => ⟨S640000x128, .f32⟩
  | .hbm, ⟨16, _⟩ => ⟨S640000x128, .f32⟩
  | .hbm, ⟨17, _⟩ => ⟨S_, .f32⟩
  | .hbm, ⟨18, _⟩ => ⟨S10000x128, .f32⟩
  | .hbm, ⟨19, _⟩ => ⟨S640000x1, .i32⟩
  | .hbm, ⟨20, _⟩ => ⟨S10000x128, .f32⟩
  | .hbm, ⟨21, _⟩ => ⟨S10000x256, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x256, .f32⟩
  | .hbm, ⟨31, _⟩ => ⟨S_, .f32⟩
  | .hbm, ⟨32, _⟩ => ⟨S10000x256, .f32⟩
  | .hbm, ⟨33, _⟩ => ⟨S640000x1, .i32⟩
  | .hbm, ⟨34, _⟩ => ⟨S10000x256, .f32⟩
  | .hbm, ⟨35, _⟩ => ⟨S10000x256, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S1x128, .f32⟩
  | .hbm, ⟨45, _⟩ => ⟨S10000x128, .f32⟩
  | .hbm, ⟨46, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S10000x128 : S_.BroadcastsInDim S10000x128 (![] : Fin 0 → Fin S10000x128.rank)
  bcast_S640000_S640000x1_0 : S640000.BroadcastsInDim S640000x1 (![0] : Fin 1 → Fin S640000x1.rank)
  concatenates_S10000x128_S10000x128_S10000x256_d1 : Shape.Concatenates [S10000x128, S10000x128] S10000x256 1
  bcast_S_S640000 : S_.BroadcastsInDim S640000 (![] : Fin 0 → Fin S640000.rank)
  bcast_S_S10000x256 : S_.BroadcastsInDim S10000x256 (![] : Fin 0 → Fin S10000x256.rank)
  bcast_S1x128_S10000x128_0_1 : S1x128.BroadcastsInDim S10000x128 (![0, 1] : Fin 2 → Fin S10000x128.rank)
  dot_S640000x128_S128x128_S640000x128_1_0_0_1_n_n_wf : DotDims.WF S640000x128 S128x128 S640000x128 [1] [0] [0] [1] [] []
  scatter_S10000x128_S640000x1_S640000x128_1_0_0_1_wf : ScatterDims.WF S10000x128 S640000x1 S640000x128 [1] [0] [0] 1
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []

variable [Facts₀]

def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KernelRun.lean ====
/-
  The idealized kernel's run with its result array named.

  The program is two launches among two stretches of host operations. Its buffers' contents at the four
  boundaries are a fold from the launch memory: after the first stretch, after the first launch (its output
  array at what the write-backs leave, everything else as entered), after the second stretch, after the
  second launch. Every weakly fair execution terminates in a memory whose unscoped buffers hold the last of
  these; read at the result buffer that is the second launch's output array after its last write-back, and
  read at an argument it is the launch contents.
-/
import proofs.«129932_j27453430956621_1_alg».proof.Proof.Gen.KernelIdeal.Frame

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents there,
    and each argument array as launched. -/
theorem run : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.Spec.lean ====
/-
  The two dense layers of the graph-convolution step, entry by entry, over the extended reals.

  A dense layer takes a matrix `a` (rows × K), a weight matrix `w` (K × C) and a bias vector `b` (C):
  entry (r, j) of the result is the sum over k of a(r, k) · w(k, j), plus b(j). The edge encoder is one such
  layer over the edge attributes. The node update is two of them with a rectifier between: the hidden entry
  (r, k) is the larger of the first layer's entry and zero, and the output entry (r, j) is the second layer
  applied to the hidden row. Nothing here needs the entries to be finite: each formula is a sum of products
  and one further sum, read the same way on both sides.
-/
import Idealize.ShloMosaic.PureOps.Ideal
import Idealize.ShloMosaic.PureOps.Ideal.Laws
import Idealize.ShloMosaic.Lib.ValueIdx

noncomputable section

namespace Cert.GinSpec

open Idealize.ShloMosaic Idealize.ShloMosaic.ValueIdx

/-- Entry (r, j) of a dense layer: row r of `a` against column j of `w`, plus the bias at j. -/
def denseAt {R K C : Nat} (a : (⟨2, ![R, K]⟩ : Shape).Idx → EReal) (w : (⟨2, ![K, C]⟩ : Shape).Idx → EReal)
    (b : (⟨1, ![C]⟩ : Shape).Idx → EReal) (r : Fin R) (j : Fin C) : EReal :=
  (∑ k : Fin K, a (ix2 r k) * w (ix2 k j)) + b (ix1 j)

/-- The dense layer as a whole matrix. -/
def dense {R K C : Nat} (a : (⟨2, ![R, K]⟩ : Shape).Idx → EReal) (w : (⟨2, ![K, C]⟩ : Shape).Idx → EReal)
    (b : (⟨1, ![C]⟩ : Shape).Idx → EReal) : (⟨2, ![R, C]⟩ : Shape).Idx → EReal :=
  fun i => denseAt a w b (i 0) (i 1)

/-- Hidden entry (r, k) of the node update: the first layer's entry, or zero if that is larger. -/
def hiddenAt {R K H : Nat} (h : (⟨2, ![R, K]⟩ : Shape).Idx → EReal) (w1 : (⟨2, ![K, H]⟩ : Shape).Idx → EReal)
    (b1 : (⟨1, ![H]⟩ : Shape).Idx → EReal) (r : Fin R) (k : Fin H) : EReal :=
  max (denseAt h w1 b1 r k) (Ideal.ofBits .f32 0x00000000#32)

/-- Output entry (r, j) of the node update: the second layer over the hidden row r. -/
def mlpAt {R K H C : Nat} (h : (⟨2, ![R, K]⟩ : Shape).Idx → EReal) (w1 : (⟨2, ![K, H]⟩ : Shape).Idx → EReal)
    (b1 : (⟨1, ![H]⟩ : Shape).Idx → EReal) (w2 : (⟨2, ![H, C]⟩ : Shape).Idx → EReal)
    (b2 : (⟨1, ![C]⟩ : Shape).Idx → EReal) (r : Fin R) (j : Fin C) : EReal :=
  (∑ k : Fin H, hiddenAt h w1 b1 r k * w2 (ix2 k j)) + b2 (ix1 j)

/-- The node update as a whole matrix. -/
def mlp {R K H C : Nat} (h : (⟨2, ![R, K]⟩ : Shape).Idx → EReal) (w1 : (⟨2, ![K, H]⟩ : Shape).Idx → EReal)
    (b1 : (⟨1, ![H]⟩ : Shape).Idx → EReal) (w2 : (⟨2, ![H, C]⟩ : Shape).Idx → EReal)
    (b2 : (⟨1, ![C]⟩ : Shape).Idx → EReal) : (⟨2, ![R, C]⟩ : Shape).Idx → EReal :=
  fun i => mlpAt h w1 b1 w2 b2 (i 0) (i 1)

/-- A dense entry depends on its row of `a` only: two matrices that agree along the row give the same entry. -/
theorem denseAt_congr {R R' K C : Nat} (a : (⟨2, ![R, K]⟩ : Shape).Idx → EReal) (a' : (⟨2, ![R', K]⟩ : Shape).Idx → EReal)
    (w : (⟨2, ![K, C]⟩ : Shape).Idx → EReal) (b : (⟨1, ![C]⟩ : Shape).Idx → EReal) (r : Fin R) (r' : Fin R') (j : Fin C)
    (hrow : ∀ k : Fin K, a (ix2 r k) = a' (ix2 r' k)) : denseAt a w b r j = denseAt a' w b r' j := by
  unfold denseAt
  exact congrArg (· + b (ix1 j)) (Finset.sum_congr rfl fun k _ => by rw [hrow k])

/-- The same for an output entry of the node update. -/
theorem mlpAt_congr {R R' K H C : Nat} (h : (⟨2, ![R, K]⟩ : Shape).Idx → EReal) (h' : (⟨2, ![R', K]⟩ : Shape).Idx → EReal)
    (w1 : (⟨2, ![K, H]⟩ : Shape).Idx → EReal) (b1 : (⟨1, ![H]⟩ : Shape).Idx → EReal)
    (w2 : (⟨2, ![H, C]⟩ : Shape).Idx → EReal) (b2 : (⟨1, ![C]⟩ : Shape).Idx → EReal) (r : Fin R) (r' : Fin R') (j : Fin C)
    (hrow : ∀ k : Fin K, h (ix2 r k) = h' (ix2 r' k)) : mlpAt h w1 b1 w2 b2 r j = mlpAt h' w1 b1 w2 b2 r' j := by
  unfold mlpAt hiddenAt
  exact congrArg (· + b2 (ix1 j)) (Finset.sum_congr rfl fun k _ => by rw [denseAt_congr h h' w1 b1 r r' k hrow])

end Cert.GinSpec

end
-- ==== Proof.Layout.lean ====
/-
  A bias vector laid along the rows of a matrix, read at an entry.

  The vector [128] is first given a leading unit axis, [1, 128], and that single row is then repeated down
  n rows, [n, 128]. Entry (p, q) of the result is entry q of the vector, whatever the row p.
-/
import Idealize.ShloMosaic.Lib.Pipeline.Value
import Idealize.ShloMosaic.Lib.ValueIdx

noncomputable section

namespace Cert.GinSpec

open Idealize.ShloMosaic Idealize.ShloMosaic.ValueIdx

/-- The repeated row at (p, q) is the vector at q. -/
theorem biasRow_at {α : Type} {n : Nat} (x : (⟨1, ![128]⟩ : Shape).Idx → α)
    (h1 : (⟨1, ![128]⟩ : Shape).ShapeCasts ⟨2, ![1, 128]⟩) (h2 : (⟨2, ![1, 128]⟩ : Shape).Broadcasts ⟨2, ![n, 128]⟩)
    (p : Fin n) (q : Fin 128) :
    broadcastTo (⟨2, ![n, 128]⟩ : Shape) (shapeCast (⟨2, ![1, 128]⟩ : Shape) x h1) h2 (ix2 p q) = x (ix1 q) := by
  refine (broadcastTo_apply (shapeCast (⟨2, ![1, 128]⟩ : Shape) x h1) h2 (ix2 p q) (ix2 (0 : Fin 1) q) (fun a => ?_)).trans ?_
  · match a with
    | ⟨0, _⟩ => show 0 = if (1 : Nat) = 1 then 0 else _; rw [if_pos rfl]
    | ⟨1, _⟩ => show q.val = if (128 : Nat) = 1 then 0 else q.val; rw [if_neg (by decide)]
  · exact shapeCast_apply x h1 (ix2 (0 : Fin 1) q) (ix1 q) (by
      rw [Shape.rowMajor_val_two, Shape.rowMajor_val_one]
      show q.val = 0 * 128 + q.val
      omega)

end Cert.GinSpec

end
-- ==== Proof.Region0.lean ====
/-
  The edge encoder's launch: its output array is the dense layer of the arrays it is entered with.

  The launch walks 64 blocks of 10000 edges. At block t the body loads rows 10000·t … 10000·t + 9999 of the
  edge attributes, the whole weight matrix and the whole bias, and stores the product of the rows with the
  weights, accumulated from zero, plus the bias laid along the rows. Entry (p, q) of what it stores is therefore
  the dense-layer entry of row 10000·t + p, and since the 64 blocks tile the 640000 rows, the array the launch
  leaves is the dense layer of the edge attributes, whatever contents the launch was entered with.
-/
import proofs.«129932_j27453430956621_1_alg».proof.Proof.Gen.KernelIdeal.Frame
import proofs.«129932_j27453430956621_1_alg».proof.Proof.Spec
import proofs.«129932_j27453430956621_1_alg».proof.Proof.Layout
import Idealize.ShloMosaic.Lib.Pipeline.Value
import Idealize.ShloMosaic.Lib.ValueIdx
import Idealize.ShloMosaic.PureOps.Ideal.Laws

noncomputable section

namespace Cert.KernelIdeal.Encode

open Idealize.ShloMosaic Idealize.ShloMosaic.TcCoe Idealize.SL.Sem Idealize.ShloMosaic.ValueIdx
open Idealize.ShloMosaic.Pipeline (Dat)
open Cert.KernelIdeal Cert.KernelIdeal.Gen Cert.GinSpec

/-! ## The product of a block of rows with the weights, at an entry -/

theorem lhs_row (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem rhs_col (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Accumulated from zero, entry (p, q) of the product is the sum over k of l(p, k) · r(k, q). -/
theorem product_at (l : FVec Ideal S10000x128 .bf16) (r : FVec Ideal S128x128 .bf16) (p : Fin 10000) (q : Fin 128) :
    matmul dot_S10000x128_S128x128_S10000x128_1_0_0_1_n_n none l r (constant S10000x128 .f32 0x00000000#32) (ix2 p q)
      = ∑ k : Fin 128, l (ix2 p k) * r (ix2 k q) := by
  refine (Ideal.matmul_constant_zero_apply dot_S10000x128_S128x128_S10000x128_1_0_0_1_n_n none l r (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact rhs_col _ _)
  rw [el, er]

/-- What the body stores, at entry (p, q): the dense-layer entry of the loaded blocks. Rounding the operands to a
    narrower format changes nothing on the extended reals. -/
theorem stored_at (x0 : Vec Ideal S10000x128 .f32) (x1 : Vec Ideal S128x128 .f32) (x2 : Vec Ideal S128 .f32)
    (p : Fin 10000) (q : Fin 128) :
    k0_pay1 (F := Ideal) x0 x1 x2 (ix2 p q) = denseAt (R := 10000) (K := 128) (C := 128) x0 x1 x2 p q := by
  unfold k0_pay1 denseAt
  refine congrArg₂ (· + ·) ?_ ?_
  · exact product_at _ _ p q
  · exact biasRow_at x2 shapeCasts_S128_S1x128 broadcasts_S1x128_S10000x128 p q

/-! ## The blocks the body reads and writes, as parts of the arrays -/

theorem hz2 : (![0, 0] : Fin 2 → Nat) = fun _ => 0 := funext fun a => by fin_cases a <;> rfl
theorem hz1 : (![0] : Fin 1 → Nat) = fun _ => 0 := funext fun a => by fin_cases a <;> rfl

/-- The block indices over the grid: the edge rows and the output move with the point, the weights and the bias stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The block of edge rows at point t: row p of the block is row 10000·t + p of the array. -/
theorem rows_block (c : Dev nD) (t : Fin cfg0.N) (x : S10000x128.Idx) (k : S640000x128.Idx)
    (hk0 : (k 0).val = t.val * 10000 + (x 0).val) (hk1 : (k 1).val = (x 1).val) :
    (iblk0 V c 0 t : Vec Ideal S10000x128 .f32) x = (V c main_arg2 : S640000x128.Idx → EReal) k := by
  obtain ⟨e0, e1, -⟩ := block_indices t
  unfold iblk0
  rw [View.read_apply]
  show (V c main_arg2 : S640000x128.Idx → EReal) _ = (V c main_arg2 : S640000x128.Idx → EReal) k
  refine congrArg (V c main_arg2 : S640000x128.Idx → EReal) (funext fun a => Fin.ext ?_)
  match a with
  | ⟨0, _⟩ => show win0_0.index t (0 : Fin 2) * 10000 + 1 * (x 0).val = (k 0).val; rw [e0, hk0]; omega
  | ⟨1, _⟩ => show win0_0.index t (1 : Fin 2) * 128 + 1 * (x 1).val = (k 1).val; rw [e1, hk1]; omega

/-- The weights' block at any point is the whole matrix. -/
theorem weights_block (c : Dev nD) (t : Fin cfg0.N) :
    (iblk0 V c 1 t : Vec Ideal S128x128 .f32) = (V c main_arg3 : S128x128.Idx → EReal) := by
  obtain ⟨-, -, e2, e3, -⟩ := block_indices t
  funext x
  unfold iblk0
  rw [View.read_apply]
  show (V c main_arg3 : S128x128.Idx → EReal) _ = (V c main_arg3 : S128x128.Idx → EReal) x
  refine congrArg (V c main_arg3 : S128x128.Idx → EReal) (funext fun a => Fin.ext ?_)
  match a with
  | ⟨0, _⟩ => show win0_1.index t (0 : Fin 2) * 128 + 1 * (x 0).val = (x 0).val; rw [e2]; omega
  | ⟨1, _⟩ => show win0_1.index t (1 : Fin 2) * 128 + 1 * (x 1).val = (x 1).val; rw [e3]; omega

/-- The bias's block at any point is the whole vector. -/
theorem bias_block (c : Dev nD) (t : Fin cfg0.N) :
    (iblk0 V c 2 t : Vec Ideal S128 .f32) = (V c main_arg4 : S128.Idx → EReal) := by
  obtain ⟨-, -, -, -, e4, -⟩ := block_indices t
  funext x
  unfold iblk0
  rw [View.read_apply]
  show (V c main_arg4 : S128.Idx → EReal) _ = (V c main_arg4 : S128.Idx → EReal) x
  refine congrArg (V c main_arg4 : S128.Idx → EReal) (funext fun a => Fin.ext ?_)
  match a with
  | ⟨0, _⟩ => show win0_2.index t (0 : Fin 1) * 128 + 1 * (x 0).val = (x 0).val; rw [e4]; omega

/-- The encoder's result as a whole array, from the arrays the launch is entered with. -/
abbrev encoded (c : Dev nD) : S640000x128.Idx → EReal :=
  dense (R := 640000) (K := 128) (C := 128) (V c main_arg2) (V c main_arg3) (V c main_arg4)

/-- What point t writes back is block t of the encoder's result. -/
theorem written_back (c : Dev nD) (t : Fin cfg0.N) :
    (dat0 V c).flushed 3 t = ((cfg0.win 3).blk t).view.read (Elt Ideal) (encoded V c) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x128) hz2, View.ld_unit_zero (S := S128) hz1]
  rw [weights_block V c t, bias_block V c t]
  obtain ⟨-, -, -, -, -, e5, e6⟩ := block_indices t
  funext j
  obtain ⟨p, q, rfl⟩ : ∃ (p : Fin 10000) (q : Fin 128), j = ix2 p q := ⟨j 0, j 1, eq_ix2 j⟩
  refine (stored_at _ _ _ p q).trans ?_
  rw [View.read_apply]
  show _ = denseAt (R := 640000) (K := 128) (C := 128) (V c main_arg2) (V c main_arg3) (V c main_arg4)
    ((((cfg0.win 3).blk t).view.emb (ix2 p q)) 0) ((((cfg0.win 3).blk t).view.emb (ix2 p q)) 1)
  have hq : (((cfg0.win 3).blk t).view.emb (ix2 p q)) 1 = q := Fin.ext (by
    show win0_3.index t (1 : Fin 2) * 128 + 1 * q.val = q.val; rw [e6]; omega)
  have hp : ((((cfg0.win 3).blk t).view.emb (ix2 p q)) 0).val = t.val * 10000 + p.val := by
    show win0_3.index t (0 : Fin 2) * 10000 + 1 * p.val = _; rw [e5]; omega
  rw [hq]
  exact denseAt_congr _ _ _ _ p _ q fun k => rows_block V c t (ix2 p k) (ix2 _ k) hp rfl

/-- An index of the output array is in point t's block iff each coordinate is in the block's range. -/
theorem mem_block (t : Fin cfg0.N) (i : S640000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v4).slice (win0_3.rect t)).set ↔ _
  rw [View.set_slice_whole, Rect.mem_set_unit]
  exact Iff.rfl

/-- Every row of the output is in some point's block: row r in block r / 10000. -/
theorem covered (i : S640000x128.Idx) :
    ∃ t : Fin cfg0.N, (cfg0.win 3).flush t = true ∧ i ∈ ((cfg0.win 3).blk t).view.set := by
  have h0 : (i 0).val < 640000 := (i 0).isLt
  have h1 : (i 1).val < 128 := (i 1).isLt
  have hN : cfg0.N = 64 := N_0
  refine ⟨⟨(i 0).val / 10000, by rw [hN]; omega⟩, flush0_3 _, ?_⟩
  obtain ⟨-, -, -, -, -, e5, e6⟩ := block_indices ⟨(i 0).val / 10000, by rw [hN]; omega⟩
  rw [mem_block]
  intro a
  match a with
  | ⟨0, _⟩ =>
    show win0_3.index _ (0 : Fin 2) * 10000 ≤ (i 0).val ∧ (i 0).val < win0_3.index _ (0 : Fin 2) * 10000 + 10000
    rw [e5]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e6]; omega

/-- THE OUTPUT ARRAY after the launch is the dense layer of the arrays the launch was entered with. -/
theorem array_after (c : Dev nD) : (dat0 V c).arrAt 3 cfg0.N = encoded V c :=
  (dat0 V c).arrAt_eq_of_cover 3 (encoded V c) (fun t _ => written_back V c t) covered

end Cert.KernelIdeal.Encode

end
-- ==== Proof.Region1.lean ====
/-
  The node update's launch: its output array is the two-layer update of the arrays it is entered with.

  The launch walks 5 blocks of 2000 nodes. At block t the body loads rows 2000·t … 2000·t + 1999 of the
  aggregated features and the whole of both weight matrices and both biases. It stores the second product,
  accumulated from zero, of the rectified first layer with the second weights, plus the second bias laid along
  the rows; the first layer is the product of the rows with the first weights, accumulated from zero, plus the
  first bias. Entry (p, q) of what it stores is the update's entry of row 2000·t + p, and the 5 blocks tile the
  10000 rows, so the array the launch leaves is the update of the features it was entered with.
-/
import proofs.«129932_j27453430956621_1_alg».proof.Proof.Gen.KernelIdeal.Frame
import proofs.«129932_j27453430956621_1_alg».proof.Proof.Spec
import proofs.«129932_j27453430956621_1_alg».proof.Proof.Layout
import Idealize.ShloMosaic.Lib.Pipeline.Value
import Idealize.ShloMosaic.Lib.ValueIdx
import Idealize.ShloMosaic.PureOps.Ideal.Laws

noncomputable section

namespace Cert.KernelIdeal.Update

open Idealize.ShloMosaic Idealize.ShloMosaic.TcCoe Idealize.SL.Sem Idealize.ShloMosaic.ValueIdx
open Idealize.ShloMosaic.Pipeline (Dat)
open Cert.KernelIdeal Cert.KernelIdeal.Gen Cert.GinSpec

/-! ## The two products, at an entry -/

theorem first_lhs_row (i : S2000x128.Idx) (k : dot_S2000x256_S256x128_S2000x128_1_0_0_1_n_n.contr.Idx) :
    (dot_S2000x256_S256x128_S2000x128_1_0_0_1_n_n.lhsIdx i k 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl

theorem first_rhs_col (i : S2000x128.Idx) (k : dot_S2000x256_S256x128_S2000x128_1_0_0_1_n_n.contr.Idx) :
    (dot_S2000x256_S256x128_S2000x128_1_0_0_1_n_n.rhsIdx i k 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Accumulated from zero, entry (p, q) of the product is the sum over k of l(p, k) · r(k, q). -/
theorem first_at (l : FVec Ideal S2000x256 .bf16) (r : FVec Ideal S256x128 .bf16) (p : Fin 2000) (q : Fin 128) :
    matmul dot_S2000x256_S256x128_S2000x128_1_0_0_1_n_n none l r (constant S2000x128 .f32 0x00000000#32) (ix2 p q)
      = ∑ k : Fin 256, l (ix2 p k) * r (ix2 k q) := by
  refine (Ideal.matmul_constant_zero_apply dot_S2000x256_S256x128_S2000x128_1_0_0_1_n_n none l r (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact first_lhs_row _ _
    | ⟨1, _⟩ => exact (dot_S2000x256_S256x128_S2000x128_1_0_0_1_n_n.lhsIdx_val_of_single rfl _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (dot_S2000x256_S256x128_S2000x128_1_0_0_1_n_n.rhsIdx_val_of_single rfl _ _).trans hk
    | ⟨1, _⟩ => exact first_rhs_col _ _)
  rw [el, er]

theorem second_lhs_row (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

theorem second_rhs_col (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Accumulated from zero, entry (p, q) of the product is the sum over k of l(p, k) · r(k, q). -/
theorem second_at (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact second_lhs_row _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact second_rhs_col _ _)
  rw [el, er]

/-- What the body stores, at entry (p, q): the update's entry of the loaded blocks. Recasting the rows to their own
    shape and rounding operands to a narrower format change nothing on the extended reals. -/
theorem stored_at (x0 : Vec Ideal S2000x256 .f32) (x1 : Vec Ideal S256x128 .f32) (x2 : Vec Ideal S128 .f32)
    (x3 : Vec Ideal S128x128 .f32) (x4 : Vec Ideal S128 .f32) (p : Fin 2000) (q : Fin 128) :
    k1_pay1 (F := Ideal) x0 x1 x2 x3 x4 (ix2 p q)
      = mlpAt (R := 2000) (K := 256) (H := 128) (C := 128) x0 x1 x2 x3 x4 p q := by
  unfold k1_pay1 mlpAt
  refine congrArg₂ (· + ·) ?_ ?_
  · refine (second_at _ _ p q).trans (Finset.sum_congr rfl fun k _ => congrArg (· * x3 (ix2 k q)) ?_)
    unfold hiddenAt denseAt
    refine congrArg₂ max (congrArg₂ (· + ·) ?_ ?_) rfl
    · refine (first_at _ _ p k).trans (Finset.sum_congr rfl fun l _ => congrArg (· * x1 (ix2 l k)) ?_)
      exact congrFun (shapeCast_self x0 shapeCasts_S2000x256_S2000x256) (ix2 p l)
    · exact biasRow_at x2 shapeCasts_S128_S1x128 broadcasts_S1x128_S2000x128 p k
  · exact biasRow_at x4 shapeCasts_S128_S1x128 broadcasts_S1x128_S2000x128 p q

/-! ## The blocks the body reads and writes, as parts of the arrays -/

theorem hz2 : (![0, 0] : Fin 2 → Nat) = fun _ => 0 := funext fun a => by fin_cases a <;> rfl
theorem hz1 : (![0] : Fin 1 → Nat) = fun _ => 0 := funext fun a => by fin_cases a <;> rfl

/-- The block indices over the grid: the feature rows and the output move with the point, the weights and biases stay. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The block of feature rows at point t: row p of the block is row 2000·t + p of the array. -/
theorem rows_block (c : Dev nD) (t : Fin cfg1.N) (x : S2000x256.Idx) (k : S10000x256.Idx)
    (hk0 : (k 0).val = t.val * 2000 + (x 0).val) (hk1 : (k 1).val = (x 1).val) :
    (iblk1 V c 0 t : Vec Ideal S2000x256 .f32) x = (V c main_v19 : S10000x256.Idx → EReal) k := by
  obtain ⟨e0, e1, -⟩ := block_indices t
  unfold iblk1
  rw [View.read_apply]
  show (V c main_v19 : S10000x256.Idx → EReal) _ = (V c main_v19 : S10000x256.Idx → EReal) k
  refine congrArg (V c main_v19 : S10000x256.Idx → EReal) (funext fun a => Fin.ext ?_)
  match a with
  | ⟨0, _⟩ => show win1_0.index t (0 : Fin 2) * 2000 + 1 * (x 0).val = (k 0).val; rw [e0, hk0]; omega
  | ⟨1, _⟩ => show win1_0.index t (1 : Fin 2) * 256 + 1 * (x 1).val = (k 1).val; rw [e1, hk1]; omega

/-- Each weight matrix's and each bias's block at any point is the whole array. -/
theorem weights1_block (c : Dev nD) (t : Fin cfg1.N) :
    (iblk1 V c 1 t : Vec Ideal S256x128 .f32) = (V c main_arg5 : S256x128.Idx → EReal) := by
  obtain ⟨-, -, e2, e3, -⟩ := block_indices t
  funext x
  unfold iblk1
  rw [View.read_apply]
  show (V c main_arg5 : S256x128.Idx → EReal) _ = (V c main_arg5 : S256x128.Idx → EReal) x
  refine congrArg (V c main_arg5 : S256x128.Idx → EReal) (funext fun a => Fin.ext ?_)
  match a with
  | ⟨0, _⟩ => show win1_1.index t (0 : Fin 2) * 256 + 1 * (x 0).val = (x 0).val; rw [e2]; omega
  | ⟨1, _⟩ => show win1_1.index t (1 : Fin 2) * 128 + 1 * (x 1).val = (x 1).val; rw [e3]; omega

theorem bias1_block (c : Dev nD) (t : Fin cfg1.N) :
    (iblk1 V c 2 t : Vec Ideal S128 .f32) = (V c main_arg6 : S128.Idx → EReal) := by
  obtain ⟨-, -, -, -, e4, -⟩ := block_indices t
  funext x
  unfold iblk1
  rw [View.read_apply]
  show (V c main_arg6 : S128.Idx → EReal) _ = (V c main_arg6 : S128.Idx → EReal) x
  refine congrArg (V c main_arg6 : S128.Idx → EReal) (funext fun a => Fin.ext ?_)
  match a with
  | ⟨0, _⟩ => show win1_2.index t (0 : Fin 1) * 128 + 1 * (x 0).val = (x 0).val; rw [e4]; omega

theorem weights2_block (c : Dev nD) (t : Fin cfg1.N) :
    (iblk1 V c 3 t : Vec Ideal S128x128 .f32) = (V c main_arg7 : S128x128.Idx → EReal) := by
  obtain ⟨-, -, -, -, -, e5, e6, -⟩ := block_indices t
  funext x
  unfold iblk1
  rw [View.read_apply]
  show (V c main_arg7 : S128x128.Idx → EReal) _ = (V c main_arg7 : S128x128.Idx → EReal) x
  refine congrArg (V c main_arg7 : S128x128.Idx → EReal) (funext fun a => Fin.ext ?_)
  match a with
  | ⟨0, _⟩ => show win1_3.index t (0 : Fin 2) * 128 + 1 * (x 0).val = (x 0).val; rw [e5]; omega
  | ⟨1, _⟩ => show win1_3.index t (1 : Fin 2) * 128 + 1 * (x 1).val = (x 1).val; rw [e6]; omega

theorem bias2_block (c : Dev nD) (t : Fin cfg1.N) :
    (iblk1 V c 4 t : Vec Ideal S128 .f32) = (V c main_arg8 : S128.Idx → EReal) := by
  obtain ⟨-, -, -, -, -, -, -, e7, -⟩ := block_indices t
  funext x
  unfold iblk1
  rw [View.read_apply]
  show (V c main_arg8 : S128.Idx → EReal) _ = (V c main_arg8 : S128.Idx → EReal) x
  refine congrArg (V c main_arg8 : S128.Idx → EReal) (funext fun a => Fin.ext ?_)
  match a with
  | ⟨0, _⟩ => show win1_4.index t (0 : Fin 1) * 128 + 1 * (x 0).val = (x 0).val; rw [e7]; omega

/-- The update's result as a whole array, from the arrays the launch is entered with. -/
abbrev updated (c : Dev nD) : S10000x128.Idx → EReal :=
  mlp (R := 10000) (K := 256) (H := 128) (C := 128) (V c main_v19) (V c main_arg5) (V c main_arg6) (V c main_arg7) (V c main_arg8)

/-- What point t writes back is block t of the update's result. -/
theorem written_back (c : Dev nD) (t : Fin cfg1.N) :
    (dat1 V c).flushed 5 t = ((cfg1.win 5).blk t).view.read (Elt Ideal) (updated V c) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x128) hz2, View.ld_unit_zero (S := S128x128) hz2,
    View.ld_unit_zero (S := S128) hz1]
  rw [weights1_block V c t, bias1_block V c t, weights2_block V c t, bias2_block V c t]
  obtain ⟨-, -, -, -, -, -, -, -, e8, e9⟩ := block_indices t
  funext j
  obtain ⟨p, q, rfl⟩ : ∃ (p : Fin 2000) (q : Fin 128), j = ix2 p q := ⟨j 0, j 1, eq_ix2 j⟩
  refine (stored_at _ _ _ _ _ p q).trans ?_
  rw [View.read_apply]
  show _ = mlpAt (R := 10000) (K := 256) (H := 128) (C := 128) (V c main_v19) (V c main_arg5) (V c main_arg6) (V c main_arg7) (V c main_arg8)
    ((((cfg1.win 5).blk t).view.emb (ix2 p q)) 0) ((((cfg1.win 5).blk t).view.emb (ix2 p q)) 1)
  have hq : (((cfg1.win 5).blk t).view.emb (ix2 p q)) 1 = q := Fin.ext (by
    show win1_5.index t (1 : Fin 2) * 128 + 1 * q.val = q.val; rw [e9]; omega)
  have hp : ((((cfg1.win 5).blk t).view.emb (ix2 p q)) 0).val = t.val * 2000 + p.val := by
    show win1_5.index t (0 : Fin 2) * 2000 + 1 * p.val = _; rw [e8]; omega
  rw [hq]
  exact mlpAt_congr _ _ _ _ _ _ p _ q fun k => rows_block V c t (ix2 p k) (ix2 _ k) hp rfl

/-- An index of the output array is in point t's block iff each coordinate is in the block's range. -/
theorem mem_block (t : Fin cfg1.N) (i : S10000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v20).slice (win1_5.rect t)).set ↔ _
  rw [View.set_slice_whole, Rect.mem_set_unit]
  exact Iff.rfl

/-- Every row of the output is in some point's block: row r in block r / 2000. -/
theorem covered (i : S10000x128.Idx) :
    ∃ t : Fin cfg1.N, (cfg1.win 5).flush t = true ∧ i ∈ ((cfg1.win 5).blk t).view.set := by
  have h0 : (i 0).val < 10000 := (i 0).isLt
  have h1 : (i 1).val < 128 := (i 1).isLt
  have hN : cfg1.N = 5 := N_1
  refine ⟨⟨(i 0).val / 2000, by rw [hN]; omega⟩, flush1_5 _, ?_⟩
  obtain ⟨-, -, -, -, -, -, -, -, e8, e9⟩ := block_indices ⟨(i 0).val / 2000, by rw [hN]; omega⟩
  rw [mem_block]
  intro a
  match a with
  | ⟨0, _⟩ =>
    show win1_5.index _ (0 : Fin 2) * 2000 ≤ (i 0).val ∧ (i 0).val < win1_5.index _ (0 : Fin 2) * 2000 + 2000
    rw [e8]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [e9]; omega

/-- THE OUTPUT ARRAY after the launch is the two-layer update of the arrays the launch was entered with. -/
theorem array_after (c : Dev nD) : (dat1 V c).arrAt 5 cfg1.N = updated V c :=
  (dat1 V c).arrAt_eq_of_cover 5 (updated V c) (fun t _ => written_back V c t) covered

end Cert.KernelIdeal.Update

end
-- ==== Proof.RefSide.lean ====
/-
  The reference, read in three parts.

  Its first four operations build the edge embedding: a product of the edge attributes with the encoder
  weights plus the encoder bias laid along the rows — the dense layer, entry by entry. Its last nine are the
  node update applied to the aggregated features: a product, a bias, the rectifier, a second product, a
  second bias — the two-layer update, entry by entry. Everything between (the sums of edge embeddings into
  their target nodes, the concatenation with the node features, the rows gathered at the source nodes and
  summed into the targets, the final addition) is one function `aggregate` of the node features, the source
  and target index rows and the edge embedding; it is named here and never opened.
-/
import proofs.«129932_j27453430956621_1_alg».proof.Proof.Gen.ReferenceIdeal.Read
import proofs.«129932_j27453430956621_1_alg».proof.Proof.Spec

noncomputable section

namespace Cert.ReferenceIdeal.Parts

open Idealize.ShloMosaic Idealize.ShloMosaic.TcCoe Idealize.SL.Sem Idealize.ShloMosaic.ValueIdx
open Cert.ReferenceIdeal Cert.ReferenceIdeal.Gen Cert.ReferenceIdeal.Read Cert.GinSpec

/-! ## The aggregation between the two dense parts -/

/-- The target nodes as a column of scatter indices. -/
def targetCol (d : (⟨S640000, .i32⟩ : BufTy).Contents (Elt Ideal)) : (⟨S640000x1, .i32⟩ : BufTy).Contents (Elt Ideal) :=
  broadcastInDim S640000x1 ![0] bcast_S640000_S640000x1_0 d

/-- The source nodes as a column of gather indices, a negative index counted from the end. -/
def sourceCol (s : (⟨S640000, .i32⟩ : BufTy).Contents (Elt Ideal)) : (⟨S640000x1, .i32⟩ : BufTy).Contents (Elt Ideal) :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 10000#32))) s)

/-- The node features beside the edge embeddings summed into their target nodes. -/
def combined (x : (⟨S10000x128, .f32⟩ : BufTy).Contents (Elt Ideal)) (d : (⟨S640000, .i32⟩ : BufTy).Contents (Elt Ideal))
    (e : (⟨S640000x128, .f32⟩ : BufTy).Contents (Elt Ideal)) : (⟨S10000x256, .f32⟩ : BufTy).Contents (Elt Ideal) :=
  concatenate S10000x256 1 [⟨S10000x128, x⟩, ⟨S10000x128,
    Host.scatterAdd (F := Ideal) scatter_S10000x128_S640000x1_S640000x128_1_0_0_1
      (broadcastInDim S10000x128 ![] bcast_S_S10000x128 (constant (F := Ideal) S_ .f32 0x00000000#32)) (targetCol d) e⟩]
    concatenates_S10000x128_S10000x128_S10000x256_d1

/-- The combined features plus, for every node, the sum of the combined rows of its source neighbours. -/
def aggregate (x : (⟨S10000x128, .f32⟩ : BufTy).Contents (Elt Ideal)) (s d : (⟨S640000, .i32⟩ : BufTy).Contents (Elt Ideal))
    (e : (⟨S640000x128, .f32⟩ : BufTy).Contents (Elt Ideal)) : (⟨S10000x256, .f32⟩ : BufTy).Contents (Elt Ideal) :=
  addf (combined x d e)
    (Host.scatterAdd (F := Ideal) scatter_S10000x256_S640000x1_S640000x256_1_0_0_1
      (broadcastInDim S10000x256 ![] bcast_S_S10000x256 (constant (F := Ideal) S_ .f32 0x00000000#32)) (targetCol d)
      (Host.gather gather_S10000x256_S640000x1_S640000x256_1_0_n_n_0_1_1256 (combined x d e) (sourceCol s)))

/-- The reference's aggregated features are `aggregate` of its index rows and its edge embedding. -/
theorem aggregated_eq (x0 : (⟨S10000x128, .f32⟩ : BufTy).Contents (Elt Ideal)) (x1 : (⟨S2x640000, .i32⟩ : BufTy).Contents (Elt Ideal))
    (x2 : (⟨S640000x128, .f32⟩ : BufTy).Contents (Elt Ideal)) (x3 : (⟨S128x128, .f32⟩ : BufTy).Contents (Elt Ideal))
    (x4 : (⟨S128, .f32⟩ : BufTy).Contents (Elt Ideal)) :
    val_main_v22 (F := Ideal) x0 x1 x2 x3 x4
      = aggregate x0 (val_main_v1 (F := Ideal) x1) (val_main_v3 (F := Ideal) x1) (val_main_v7 (F := Ideal) x2 x3 x4) := rfl

/-! ## The edge embedding is the dense layer -/

theorem encoder_eq (x2 : (⟨S640000x128, .f32⟩ : BufTy).Contents (Elt Ideal)) (x3 : (⟨S128x128, .f32⟩ : BufTy).Contents (Elt Ideal))
    (x4 : (⟨S128, .f32⟩ : BufTy).Contents (Elt Ideal)) :
    val_main_v7 (F := Ideal) x2 x3 x4 = dense (R := 640000) (K := 128) (C := 128) x2 x3 x4 := by
  funext i
  have el : ∀ k : Fin 128, lidx_main_v4 i k = ix2 (i 0) k := fun k => funext fun a => Fin.ext (by
    match a with | ⟨0, _⟩ => rfl | ⟨1, _⟩ => rfl)
  have er : ∀ k : Fin 128, ridx_main_v4 i k = ix2 k (i 1) := fun k => funext fun a => Fin.ext (by
    match a with | ⟨0, _⟩ => rfl | ⟨1, _⟩ => rfl)
  have eb : idx_main_v5 (idx_main_v6 i) = ix1 (i 1) := funext fun a => Fin.ext (by
    match a with | ⟨0, _⟩ => rfl)
  rw [val_main_v7_apply, val_main_v4_apply, val_main_v6_apply, val_main_v5_apply]
  simp only [el, er, eb]
  rfl

/-! ## The last stage is the two-layer update of the aggregated features -/

theorem update_eq (x0 : (⟨S10000x128, .f32⟩ : BufTy).Contents (Elt Ideal)) (x1 : (⟨S2x640000, .i32⟩ : BufTy).Contents (Elt Ideal))
    (x2 : (⟨S640000x128, .f32⟩ : BufTy).Contents (Elt Ideal)) (x3 : (⟨S128x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) :
    val_main_v31 (F := Ideal) x0 x1 x2 x3 x4 x5 x6 x7 x8
      = mlp (R := 10000) (K := 256) (H := 128) (C := 128) (val_main_v22 (F := Ideal) x0 x1 x2 x3 x4) x5 x6 x7 x8 := by
  funext i
  obtain ⟨r, j, rfl⟩ : ∃ (r : Fin 10000) (j : Fin 128), i = ix2 r j := ⟨i 0, i 1, eq_ix2 i⟩
  have el : ∀ k : Fin 128, lidx_main_v28 (ix2 r j) k = ix2 r k := fun k => funext fun a => Fin.ext (by
    match a with | ⟨0, _⟩ => rfl | ⟨1, _⟩ => rfl)
  have er : ∀ k : Fin 128, ridx_main_v28 (ix2 r j) k = ix2 k j := fun k => funext fun a => Fin.ext (by
    match a with | ⟨0, _⟩ => rfl | ⟨1, _⟩ => rfl)
  have eb : idx_main_v29 (idx_main_v30 (ix2 r j)) = ix1 j := funext fun a => Fin.ext (by
    match a with | ⟨0, _⟩ => rfl)
  have el1 : ∀ (k : Fin 128) (l : Fin 256), lidx_main_v23 (ix2 r k) l = ix2 r l := fun k l => funext fun a => Fin.ext (by
    match a with | ⟨0, _⟩ => rfl | ⟨1, _⟩ => rfl)
  have er1 : ∀ (k : Fin 128) (l : Fin 256), ridx_main_v23 (ix2 r k) l = ix2 l k := fun k l => funext fun a => Fin.ext (by
    match a with | ⟨0, _⟩ => rfl | ⟨1, _⟩ => rfl)
  have eb1 : ∀ k : Fin 128, idx_main_v24 (idx_main_v25 (ix2 r k)) = ix1 k := fun k => funext fun a => Fin.ext (by
    match a with | ⟨0, _⟩ => rfl)
  rw [val_main_v31_apply, val_main_v28_apply, val_main_v30_apply, val_main_v29_apply, eb]
  show _ + _ = mlpAt (R := 10000) (K := 256) (H := 128) (C := 128) (val_main_v22 (F := Ideal) x0 x1 x2 x3 x4) x5 x6 x7 x8 r j
  unfold mlpAt
  refine congrArg₂ (· + ·) (Finset.sum_congr rfl fun k _ => ?_) rfl
  rw [el, er]
  refine congrArg (· * x7 (ix2 k j)) ?_
  rw [val_main_v27_apply, val_main_v26_apply, val_main_v23_apply, val_main_v25_apply, val_main_v24_apply, eb1,
    val_main_call0_v0_apply, val_main_call0_cst_apply]
  unfold hiddenAt denseAt
  show max (_ + _) _ = max (_ + _) _
  refine congrArg₂ max (congrArg₂ (· + ·) (Finset.sum_congr rfl fun l _ => ?_) rfl) rfl
  rw [el1, er1]

/-! ## The reference's result, whole -/

/-- The reference's result as one function of its nine arguments: the update of the aggregate of the node features,
    the two index rows and the dense edge embedding. -/
def result (x0 : (⟨S10000x128, .f32⟩ : BufTy).Contents (Elt Ideal)) (x1 : (⟨S2x640000, .i32⟩ : BufTy).Contents (Elt Ideal))
    (x2 : (⟨S640000x128, .f32⟩ : BufTy).Contents (Elt Ideal)) (x3 : (⟨S128x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) : (⟨S10000x128, .f32⟩ : BufTy).Contents (Elt Ideal) :=
  mlp (R := 10000) (K := 256) (H := 128) (C := 128)
    (aggregate x0 (val_main_v1 (F := Ideal) x1) (val_main_v3 (F := Ideal) x1) (dense (R := 640000) (K := 128) (C := 128) x2 x3 x4))
    x5 x6 x7 x8

theorem result_eq (x0 : (⟨S10000x128, .f32⟩ : BufTy).Contents (Elt Ideal)) (x1 : (⟨S2x640000, .i32⟩ : BufTy).Contents (Elt Ideal))
    (x2 : (⟨S640000x128, .f32⟩ : BufTy).Contents (Elt Ideal)) (x3 : (⟨S128x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) :
    val_main_v31 (F := Ideal) x0 x1 x2 x3 x4 x5 x6 x7 x8 = result x0 x1 x2 x3 x4 x5 x6 x7 x8 := by
  rw [update_eq, aggregated_eq, encoder_eq]
  rfl

end Cert.ReferenceIdeal.Parts

end
-- ==== Proof.Bridge.lean ====
/-
  The idealized kernel's result array is the reference's result function of the launch arguments.

  Reading the boundary contents backwards from the end: the result buffer holds the second launch's output,
  which is the two-layer update of what that launch was entered with; the weights and biases it was entered
  with are the launch arguments (nothing before writes them), and the features it was entered with are what
  the host operations between the launches computed — the aggregate of the node features, the two index rows
  and the first launch's output array; that array is the dense layer of the edge attributes, encoder weights
  and encoder bias as launched, and the index rows are the two rows of the edge list as launched. The
  aggregate is the very function the reference applies, so it is carried as a name and not opened.
-/
import proofs.«129932_j27453430956621_1_alg».proof.Proof.KernelRun
import proofs.«129932_j27453430956621_1_alg».proof.Proof.Region0
import proofs.«129932_j27453430956621_1_alg».proof.Proof.Region1
import proofs.«129932_j27453430956621_1_alg».proof.Proof.RefSide
import Idealize.ShloMosaic.Lib.StableHlo.Run

noncomputable section

namespace Cert.KernelIdeal.Whole

open Idealize.ShloMosaic Idealize.ShloMosaic.TcCoe Idealize.SL.Sem Idealize.ShloMosaic.StableHlo
open Cert.KernelIdeal Cert.KernelIdeal.Gen Cert.GinSpec
open Cert.ReferenceIdeal.Parts (aggregate result)

variable (m : (ℓ : Loc nD τ sig) → Buf (Elt Ideal) ℓ) (ρ : Dev nD → PrngReg)

/-! ## What the first launch is entered with, and what it leaves -/

theorem enter0_attr (c : Dev nD) : V1 m ρ c main_arg2 = (m ((c.tc : Thread nD τ).loc main_arg2)) := by
  show StableHlo.after hostOps0 (W0 m ρ c) (Proc.devRef .tc main_arg2) = _
  dsimp only [hostOps0]; after_results
theorem enter0_weights (c : Dev nD) : V1 m ρ c main_arg3 = (m ((c.tc : Thread nD τ).loc main_arg3)) := by
  show StableHlo.after hostOps0 (W0 m ρ c) (Proc.devRef .tc main_arg3) = _
  dsimp only [hostOps0]; after_results
theorem enter0_bias (c : Dev nD) : V1 m ρ c main_arg4 = (m ((c.tc : Thread nD τ).loc main_arg4)) := by
  show StableHlo.after hostOps0 (W0 m ρ c) (Proc.devRef .tc main_arg4) = _
  dsimp only [hostOps0]; after_results

/-- The first launch's output array: the dense layer of the edge attributes, encoder weights and bias as launched. -/
theorem edges (c : Dev nD) : W2 m ρ c (Proc.devRef .tc main_v4)
    = dense (R := 640000) (K := 128) (C := 128) (m ((c.tc : Thread nD τ).loc main_arg2)) (m ((c.tc : Thread nD τ).loc main_arg3)) (m ((c.tc : Thread nD τ).loc main_arg4)) := by
  refine (W2_arr m ρ c 3).trans ((Cert.KernelIdeal.Encode.array_after (V1 m ρ) c).trans ?_)
  unfold Cert.KernelIdeal.Encode.encoded
  rw [enter0_attr, enter0_weights, enter0_bias]

/-- The node features pass the first launch untouched. -/
theorem nodes (c : Dev nD) : W2 m ρ c (Proc.devRef .tc main_arg0) = (m ((c.tc : Thread nD τ).loc main_arg0)) := by
  refine (W2_of_ne m ρ c main_arg0 (by decide)).trans ?_
  show StableHlo.after hostOps0 (W0 m ρ c) (Proc.devRef .tc main_arg0) = _
  dsimp only [hostOps0]; after_results

/-- The source row of the edge list, as the reference reads it. -/
theorem sources (c : Dev nD) : W2 m ρ c (Proc.devRef .tc main_v1) = Cert.ReferenceIdeal.Read.val_main_v1 (F := Ideal) (m ((c.tc : Thread nD τ).loc main_arg1)) := by
  refine (W2_of_ne m ρ c main_v1 (by decide)).trans ?_
  show StableHlo.after hostOps0 (W0 m ρ c) (Proc.devRef .tc main_v1) = _
  dsimp only [hostOps0]; after_results; rfl

/-- The target row of the edge list, as the reference reads it. -/
theorem targets (c : Dev nD) : W2 m ρ c (Proc.devRef .tc main_v3) = Cert.ReferenceIdeal.Read.val_main_v3 (F := Ideal) (m ((c.tc : Thread nD τ).loc main_arg1)) := by
  refine (W2_of_ne m ρ c main_v3 (by decide)).trans ?_
  show StableHlo.after hostOps0 (W0 m ρ c) (Proc.devRef .tc main_v3) = _
  dsimp only [hostOps0]; after_results; rfl

/-! ## What the second launch is entered with -/

set_option maxHeartbeats 2000000 in
/-- The features it is entered with: the aggregate of the first launch's exit contents. -/
theorem features (c : Dev nD) : V3 m ρ c main_v19
    = aggregate (W2 m ρ c (Proc.devRef .tc main_arg0)) (W2 m ρ c (Proc.devRef .tc main_v1)) (W2 m ρ c (Proc.devRef .tc main_v3))
        (W2 m ρ c (Proc.devRef .tc main_v4)) := by
  show StableHlo.after hostOps1 (W2 m ρ c) (Proc.devRef .tc main_v19) = _
  dsimp only [hostOps1]
  after_results_simp <;> rfl

/-- Its weights and biases are the launch arguments: they end as launched, and the launch does not write them. -/
theorem enter1_weights1 (c : Dev nD) : V3 m ρ c main_arg5 = (m ((c.tc : Thread nD τ).loc main_arg5)) :=
  ((W4_arr m ρ c 1).trans (((dat1 (V3 m ρ) c).arrAt_in 1 rfl _).trans (A_eq1 (V3 m ρ) c 1))).symm.trans (W4_main_arg5 m ρ c)
theorem enter1_bias1 (c : Dev nD) : V3 m ρ c main_arg6 = (m ((c.tc : Thread nD τ).loc main_arg6)) :=
  ((W4_arr m ρ c 2).trans (((dat1 (V3 m ρ) c).arrAt_in 2 rfl _).trans (A_eq1 (V3 m ρ) c 2))).symm.trans (W4_main_arg6 m ρ c)
theorem enter1_weights2 (c : Dev nD) : V3 m ρ c main_arg7 = (m ((c.tc : Thread nD τ).loc main_arg7)) :=
  ((W4_arr m ρ c 3).trans (((dat1 (V3 m ρ) c).arrAt_in 3 rfl _).trans (A_eq1 (V3 m ρ) c 3))).symm.trans (W4_main_arg7 m ρ c)
theorem enter1_bias2 (c : Dev nD) : V3 m ρ c main_arg8 = (m ((c.tc : Thread nD τ).loc main_arg8)) :=
  ((W4_arr m ρ c 4).trans (((dat1 (V3 m ρ) c).arrAt_in 4 rfl _).trans (A_eq1 (V3 m ρ) c 4))).symm.trans (W4_main_arg8 m ρ c)

/-! ## The result -/

/-- The result buffer at the end: the reference's result function of the nine launch arguments. -/
theorem result_array (c : Dev nD) : W4 m ρ c (Proc.devRef .tc main_v20)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W4_arr m ρ c 5).trans ((Cert.KernelIdeal.Update.array_after (V3 m ρ) c).trans ?_)
  unfold Cert.KernelIdeal.Update.updated result
  rw [features, nodes, sources, targets, edges, enter1_weights1, enter1_bias1, enter1_weights2, enter1_bias2]

/-- The run, read: every weakly fair execution terminates with the result buffer at the reference's result function
    of the launch arguments, and the arguments as launched. -/
theorem run : θ_run defs (onTc (τ := τ) (main (F := Ideal))) ⟨m, fun _ => 0, ρ⟩ (fun r => ∀ c : Dev nD,
      r.2.mem ((c.tc : Thread nD τ).loc main_v20) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_array m ρ c), (h c).2⟩) (Cert.KernelIdeal.Named.run m ρ)

end Cert.KernelIdeal.Whole

end
-- ==== Proof.lean ====
/-
  One graph-convolution step with edge features: the tiled kernel against the plain reference, on the extended reals.

  Both programs compute, for 10000 nodes and 640000 directed edges,
    out = relu(h · W1 + b1) · W2 + b2,   h = c + (sum over the edges into each node of the row of c at the edge's source),
    c = [x | sum over the edges into each node of the edge's embedding],   embedding = edge_attr · We + be.
  The reference spells every step as a host operation. The kernel runs the two dense parts (the embedding, and the
  two-layer update of h) as launches over blocks of rows — 64 blocks of 10000 edges, 5 blocks of 2000 nodes — each
  product accumulated from zero with its operands rounded to a narrower format first, and keeps the irregular middle
  (the two sums into target nodes, the concatenation, the rows gathered at the sources, the addition) as the same host
  operations the reference uses. On the extended reals the rounding is the identity, a product accumulated from zero
  is the plain sum over the contracted axis, and a block of rows of a dense layer is the dense layer of the block of
  rows; so each launch leaves exactly the reference's dense stage, the middle is one shared function applied to equal
  values, and the two results agree entry by entry. No step uses distributivity or cancellation, so the finiteness
  of the inputs is never called on.

  The three programs run to completion with their arguments unchanged: the two kernels by their launch-and-body
  certificates, the reference by its operations run in order. The idealized kernel is the word-level kernel's own
  text read on the extended reals, with no rewrite to justify.
-/
import proofs.«129932_j27453430956621_1_alg».proof.Defs
import proofs.«129932_j27453430956621_1_alg».proof.Proof.Gen.Kernel
import proofs.«129932_j27453430956621_1_alg».proof.Proof.Gen.Kernel.Skeleton
import proofs.«129932_j27453430956621_1_alg».proof.Proof.Gen.Kernel.Launch
import proofs.«129932_j27453430956621_1_alg».proof.Proof.Gen.Kernel.Points
import proofs.«129932_j27453430956621_1_alg».proof.Proof.Gen.Kernel.Frame
import proofs.«129932_j27453430956621_1_alg».proof.Proof.Gen.KernelIdeal
import proofs.«129932_j27453430956621_1_alg».proof.Proof.Gen.KernelIdeal.Skeleton
import proofs.«129932_j27453430956621_1_alg».proof.Proof.Gen.KernelIdeal.Launch
import proofs.«129932_j27453430956621_1_alg».proof.Proof.Gen.KernelIdeal.Points
import proofs.«129932_j27453430956621_1_alg».proof.Proof.Gen.KernelIdeal.Frame
import proofs.«129932_j27453430956621_1_alg».proof.Proof.Gen.ReferenceIdeal
import proofs.«129932_j27453430956621_1_alg».proof.Proof.Gen.ReferenceIdeal.Run
import proofs.«129932_j27453430956621_1_alg».proof.Proof.Gen.ReferenceIdeal.Read
import proofs.«129932_j27453430956621_1_alg».proof.Proof.Gen.Pre_finite_inputs
import proofs.«129932_j27453430956621_1_alg».proof.Proof.Bridge
import Idealize.ShloMosaic.Adequacy
import Idealize.ShloMosaic.Init

noncomputable section

namespace Cert.Proof

open Idealize.ShloMosaic Idealize.SL.Sem

namespace GinClaims

/-- The word-level kernel runs to completion, faults nowhere and leaves its arguments as launched. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its operations run in order, and none writes an argument. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the nine arguments both programs end with the same result array: the update of the
    aggregate of the node features, the edge list's two rows and the dense edge embedding. -/
theorem algebraic : Cert.algebraic_KernelIdeal_ReferenceIdeal := by
  intro m ρ m' ρ' _ hagree
  refine ⟨fun c => Cert.ReferenceIdeal.Parts.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v31_eq, Cert.ReferenceIdeal.Parts.result_eq, a0, a1, a2, a3, a4, a5, a6, a7, a8]

end GinClaims

theorem claim : Cert.Claim :=
  ⟨Cert.Kernel.Gen.facts, Cert.KernelIdeal.Gen.facts, Cert.ReferenceIdeal.Gen.facts, Cert.Pre_finite_inputs.Gen.facts,
    GinClaims.frame_kernel, GinClaims.frame_ideal, GinClaims.frame_reference, GinClaims.preserves, GinClaims.algebraic⟩

end Cert.Proof

end
